-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128x512 : Shape := ⟨3, ![4096, 128, 512]⟩
abbrev S_ : Shape := ⟨0, ![]⟩

class Facts : Prop where
  bcast_S_S4096x128x512 : S_.BroadcastsInDim S4096x128x512 (![] : Fin 0 → Fin S4096x128x512.rank)
  reducesTo_S4096x128x512_S_d0_1_2 : S4096x128x512.ReducesTo [0, 1, 2] S_
  h_S_ : 0 < S_.numel

variable [Facts]

def fn {F : FTy → Type} [FloatOps F] (main_arg0 : FVec F S4096x128x512 .f32) : IVec S_ 1 :=
  let main_v0 : FVec F S4096x128x512 .f32 := Host.absf main_arg0
  let main_cst : FVec F S_ .f32 := constant S_ .f32 0x7F800000#32
  let main_v1 : FVec F S4096x128x512 .f32 := broadcastInDim S4096x128x512 ![] bcast_S_S4096x128x512 main_cst
  let main_v2 : IVec S4096x128x512 1 := cmpf .olt main_v0 main_v1
  let main_c : IVec S_ 1 := constantI S_ 1 1#1
  let main_v3 : IVec S_ 1 := (fun x v => Host.reduce IntOp.andi x v reducesTo_S4096x128x512_S_d0_1_2 h_S_) main_v2 main_c
  main_v3
-- ==== Kernel.lean ====
abbrev S4096x128x512 : Shape := ⟨3, ![4096, 128, 512]⟩
abbrev S4096x512 : Shape := ⟨2, ![4096, 512]⟩
abbrev S64x128x512 : Shape := ⟨3, ![64, 128, 512]⟩
abbrev S64x512 : Shape := ⟨2, ![64, 512]⟩
abbrev S64x32x512 : Shape := ⟨3, ![64, 32, 512]⟩

abbrev nBuf : Space → Nat
  | .hbm => 2
  | .vmem => 4
  | .smem => 0
  | _ => 0

abbrev bufTy : (tb : Table) → Fin (tcTables nBuf tb) → BufTy
  | .hbm, ⟨0, _⟩ => ⟨S4096x128x512, .f32⟩
  | .hbm, ⟨1, _⟩ => ⟨S4096x512, .f32⟩
  | .local _ .vmem, ⟨0, _⟩ => ⟨S64x128x512, .f32⟩
  | .local _ .vmem, ⟨1, _⟩ => ⟨S64x128x512, .f32⟩
  | .local _ .vmem, ⟨2, _⟩ => ⟨S64x512, .f32⟩
  | .local _ .vmem, ⟨3, _⟩ => ⟨S64x512, .f32⟩
  | _, _ => ⟨S4096x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def k0_mult1 : BitVec 32 :=
  let c0_i32 : BitVec 32 := 0#32
  let c32_i32 : BitVec 32 := 32#32
  let v1 : BitVec 32 := Scalar.muli c0_i32 c32_i32
  v1
def k0_off1 (c0_i32 : BitVec 32) : Fin 3 → Nat :=
  let c0 : Index := 0#32
  let c32_i32 : BitVec 32 := 32#32
  let v1 : BitVec 32 := Scalar.muli c0_i32 c32_i32
  let v2 : BitVec 32 := v1
  let v3 : Index := Scalar.indexCast v2
  let c0_0 : Index := 0#32
  ![0, v3.toNat, 0]
def k0_mult2 : BitVec 32 :=
  let c1_i32 : BitVec 32 := 1#32
  let c32_i32_2 : BitVec 32 := 32#32
  let v7 : BitVec 32 := Scalar.muli c1_i32 c32_i32_2
  v7
def k0_mult3 : BitVec 32 :=
  let c2_i32 : BitVec 32 := 2#32
  let c32_i32_6 : BitVec 32 := 32#32
  let v13 : BitVec 32 := Scalar.muli c2_i32 c32_i32_6
  v13
def k0_mult4 : BitVec 32 :=
  let c3_i32 : BitVec 32 := 3#32
  let c32_i32_10 : BitVec 32 := 32#32
  let v19 : BitVec 32 := Scalar.muli c3_i32 c32_i32_10
  v19
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  h_S64x32x512 : 0 < S64x32x512.numel
  reduces_S64x32x512_S64x512 : S64x32x512.Reduces [1] S64x512
  inb_S64x512_S64x512_0_0 : ∀ a, (![0, 0] : Fin 2 → Nat) a + S64x512.size a ≤ S64x512.size a
  h_S64x512 : 0 < S64x512.numel
  hrank0 : 0 < grid0.rank
  k0_mult1_dvd : 32 ∣ k0_mult1.toNat
  k0_off1_inb : ∀ (r : Fin 4), ∀ a, (k0_off1 (BitVec.ofNat 32 r.val)) a + S64x32x512.size a ≤ S64x128x512.size a
  k0_mult2_dvd : 32 ∣ k0_mult2.toNat
  k0_mult3_dvd : 32 ∣ k0_mult3.toNat
  k0_mult4_dvd : 32 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128x512.size a ≤ S4096x128x512.size a
  hwx0_0 : ∀ i : grid0.Coords, EltTy.bits .f32 = 32 ∨ (Rect.block (s := S4096x128x512) S64x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S4096x512.size a
  hwx0_1 : ∀ i : grid0.Coords, EltTy.bits .f32 = 32 ∨ (Rect.block (s := S4096x512) S64x512.size (cc0_transform_1 i) (hinb0_1 i)).WholeWords (EltTy.packing .f32)

variable [Facts₀]

abbrev win0_0 : Pipeline.Window sig grid0 :=
  Pipeline.Window.ofSpec (Memref.whole main_arg0) S64x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x128x512 : Shape := ⟨3, ![4096, 128, 512]⟩
abbrev S_ : Shape := ⟨0, ![]⟩
abbrev S4096x512 : Shape := ⟨2, ![4096, 512]⟩

abbrev nBuf : Space → Nat
  | .hbm => 6
  | .vmem => 0
  | .smem => 0
  | _ => 0

abbrev bufTy : (tb : Table) → Fin (tcTables nBuf tb) → BufTy
  | .hbm, ⟨0, _⟩ => ⟨S4096x128x512, .f32⟩
  | .hbm, ⟨1, _⟩ => ⟨S_, .f32⟩
  | .hbm, ⟨2, _⟩ => ⟨S4096x512, .f32⟩
  | .hbm, ⟨3, _⟩ => ⟨S_, .f32⟩
  | .hbm, ⟨4, _⟩ => ⟨S4096x512, .f32⟩
  | .hbm, ⟨5, _⟩ => ⟨S4096x512, .f32⟩
  | _, _ => ⟨S4096x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  reducesTo_S4096x128x512_S4096x512_d1 : S4096x128x512.ReducesTo [1] S4096x512
  h_S_ : 0 < S_.numel
  bcast_S_S4096x512 : S_.BroadcastsInDim S4096x512 (![] : Fin 0 → Fin S4096x512.rank)

variable [Facts₀]

class Facts : Prop extends Facts₀ where

variable [Facts]
-- ==== Proof.MeanLaw.lean ====
/-
  The mean over the middle axis of a [4096, 128, 512] array of extended reals, and the two facts that join a
  chunked, reciprocal-scaled evaluation of it to the plain one:
  * a sum over 128 terms is the sum of its four consecutive runs of 32 terms, added left to right from zero
    (only commutativity and associativity of + on the extended reals: no finiteness is needed);
  * the f32 pattern 0x3C000000 denotes 2⁻⁷ = 1/128 exactly and 0x43000000 denotes 128, so multiplying by the first
    is dividing by the second, on EVERY extended real, the infinities included.
-/
import Idealize.ShloMosaic.Lib.ValueIdx
import Idealize.ShloMosaic.PureOps.Ideal.Laws

noncomputable section

namespace Cert.MeanPool

open Idealize.ShloMosaic Idealize.ShloMosaic.ValueIdx

/-- The pattern of `+0.0` denotes `0`. -/
theorem ofBits_zero : Ideal.ofBits .f32 0x00000000#32 = 0 := by
  simp [Ideal.ofBits, Ideal.ieee]

/-- The pattern of `128.0` denotes the real `128`. -/
theorem ofBits_128 : Ideal.ofBits .f32 0x43000000#32 = ((128 : ℝ) : EReal) := by
  simp [Ideal.ofBits, Ideal.ieee, -EReal.coe_mul]; norm_num

/-- The pattern of `0.0078125` denotes the real `1/128` (a power of two: nothing is rounded). -/
theorem ofBits_inv128 : Ideal.ofBits .f32 0x3C000000#32 = ((1 / 128 : ℝ) : EReal) := by
  simp [Ideal.ofBits, Ideal.ieee, -EReal.coe_mul]; norm_num

/-- Multiplying by `2⁻⁷` is dividing by `128`, for every extended real. -/
theorem mul_inv128 (x : EReal) :
    x * Ideal.ofBits .f32 0x3C000000#32 = Ideal.div x (Ideal.ofBits .f32 0x43000000#32) := by
  rw [ofBits_128, ofBits_inv128, Ideal.div_coe (by norm_num : (128 : ℝ) ≠ 0)]

/-- Position `k` of run `c` (runs of 32 in a row of 128). -/
abbrev inRun (c : Fin 4) (k : Fin 32) : Fin 128 := ⟨32 * c.val + k.val, by omega⟩

/-- A sum over 128 terms, as its four runs of 32 added left to right from zero. -/
theorem sum_four_runs {M : Type*} [AddCommMonoid M] (f : Fin 128 → M) :
    ∑ k : Fin 128, f k
      = (((0 + ∑ k : Fin 32, f (inRun 0 k)) + ∑ k : Fin 32, f (inRun 1 k)) + ∑ k : Fin 32, f (inRun 2 k))
          + ∑ k : Fin 32, f (inRun 3 k) := by
  have h3 := Fin.sum_univ_add (a := 96) (b := 32) f
  have h2 := Fin.sum_univ_add (a := 64) (b := 32) fun i : Fin 96 => f (Fin.castAdd 32 i)
  have h1 := Fin.sum_univ_add (a := 32) (b := 32) fun i : Fin 64 => f (Fin.castAdd 32 (Fin.castAdd 32 i))
  rw [h3, h2, h1, zero_add]
  rfl

/-- THE SPECIFICATION: entry `(b, d)` of the result is the sum over the 128 middle positions of `x (b, ·, d)`, divided
    by `128` (the reference's zero initial value and its divisor kept as the patterns both programs spell). -/
def meanRows (x : (⟨3, ![4096, 128, 512]⟩ : Shape).Idx → EReal) : (⟨2, ![4096, 512]⟩ : Shape).Idx → EReal :=
  fun i => Ideal.div (Ideal.ofBits .f32 0x00000000#32 + ∑ k : Fin 128, x (ix3 (i 0) k (i 1)))
    (Ideal.ofBits .f32 0x43000000#32)

end Cert.MeanPool

end
-- ==== Proof.KernelPoint.lean ====
/-
  What the idealized kernel's body leaves in its output block at one grid point, entry by entry.
  The body reads its [64, 128, 512] input block as four consecutive runs of 32 middle positions, sums each run over the
  middle axis, adds the four partial sums left to right onto a zero block and scales by the f32 constant 2⁻⁷.
  So entry (p, q) of the [64, 512] block it stores is
      ((((0 + Σ_{k<32} x(p, k, q)) + Σ_{k<32} x(p, 32+k, q)) + Σ_{k<32} x(p, 64+k, q)) + Σ_{k<32} x(p, 96+k, q)) · 2⁻⁷,
  which on the extended reals is (0 + Σ_{k<128} x(p, k, q)) / 128: regrouping a sum needs only that + is commutative and
  associative, and 2⁻⁷ is exactly 1/128, so no entry has to be finite.
-/
import proofs.«161008_j42855183679779_2_alg».proof.Proof.Gen.KernelIdeal.Frame
import proofs.«161008_j42855183679779_2_alg».proof.Proof.MeanLaw
import Idealize.ShloMosaic.Lib.Pipeline.Value
import Idealize.ShloMosaic.Lib.ValueIdx
import Idealize.ShloMosaic.PureOps.Ideal.Laws
import Idealize.ShloMosaic.Lib.Tactic

noncomputable section

open Idealize.ShloMosaic Idealize.ShloMosaic.TcCoe Idealize.SL.Sem

namespace Cert.KernelIdeal.MeanValue

open Cert.KernelIdeal Cert.KernelIdeal.Gen Idealize.ShloMosaic.ValueIdx Cert.MeanPool

variable {F : FTy → Type} [FloatOps F]

theorem hz : (![0, 0] : Fin 2 → Nat) = fun _ => 0 := funext fun a => by fin_cases a <;> rfl

/-- The rectangle of run `r` inside the input block: all 64 rows, middle positions `32 r … 32 r + 31`, all 512 lanes. -/
theorem runInb (r : Fin 4) : ∀ a, (![0, 32 * r.val, 0] : Fin 3 → Nat) a + S64x32x512.size a ≤ S64x128x512.size a := by
  intro a
  have hr := r.isLt
  match a with
  | ⟨0, _⟩ => show 0 + 64 ≤ 64; omega
  | ⟨1, _⟩ => show 32 * r.val + 32 ≤ 128; omega
  | ⟨2, _⟩ => show 0 + 512 ≤ 512; omega

abbrev runRect (r : Fin 4) : Rect S64x128x512 := Rect.unit (s := S64x128x512) ![0, 32 * r.val, 0] S64x32x512.size (runInb r)

/-- The body's one store covers the output block, and its payload is the arithmetic `k0_pay1` of the four runs the body
    loads from the input block `x`. -/
theorem out_A (c : Dev nD) (i : grid0.Coords) (a1 : Memref sig .tc .vmem S64x128x512 .f32) (h1 : a1.IsWhole)
    (a2 : Memref sig .tc .vmem S64x512 .f32) (h2 : a2.IsWhole) (x : Vec F S64x128x512 .f32) :
    out0_A_1 c i a1 h1 a2 h2 x
      = k0_pay1 (View.ld x (runRect 0)) (View.ld x (runRect 1)) (View.ld x (runRect 2)) (View.ld x (runRect 3)) := by
  unfold out0_A_1
  rw [View.read_writes_eq_canon _ _ _ (cover0_A_1 c i a1 h1 a2 h2 x)]
  unfold kernelRun0_A
  dsimp only
  rw [View.canon_unit_zero hz]
  simp only [View.readAt_eq_ld, h1.read_unread]
  rfl

/-- A run read at an entry: position `k` of run `r` is middle position `32 r + k` of the block. -/
theorem ld_run (x : Vec F S64x128x512 .f32) (r : Fin 4) (p : Fin 64) (k : Fin 32) (q : Fin 512) :
    View.ld x (runRect r) (ix3 p k q) = x (ix3 p (inRun r k) q) := by
  show x ((runRect r).idx (ix3 p k q)) = _
  refine congrArg x (funext fun a => Fin.ext ?_)
  match a with
  | ⟨0, _⟩ => show 0 + 1 * p.val = p.val; omega
  | ⟨1, _⟩ => show 32 * r.val + 1 * k.val = 32 * r.val + k.val; omega
  | ⟨2, _⟩ => show 0 + 1 * q.val = q.val; omega

/-- A sum over the middle axis of a [64, 32, 512] vector, read at entry (p, q): the sum of its 32 middle positions there. -/
theorem laneSum (v : FVec Ideal S64x32x512 .f32) (h : S64x32x512.Reduces [1] S64x512) (hφ : FKind.Formats .f32)
    (hacc : (0x00000000#32 : BitVec 32) = 0x00000000#32) (p : Fin 64) (q : Fin 512) :
    multiReduction .add [1] S64x512 v 0x00000000#32 h hφ hacc (ix2 p q) = ∑ k : Fin 32, v (ix3 p k q) :=
  (Ideal.multiReduction_add_single v 0x00000000#32 h hφ hacc (ix2 p q)).trans
    (Finset.sum_congr rfl fun k _ => congrArg v (funext fun a => Fin.ext (by
      match a with | ⟨0, _⟩ => rfl | ⟨1, _⟩ => rfl | ⟨2, _⟩ => rfl)))

/-- The body's arithmetic at entry (p, q): the four partial sums added left to right onto zero, times the constant. -/
theorem pay_apply (v4 v10 v16 v22 : FVec Ideal S64x32x512 .f32) (p : Fin 64) (q : Fin 512) :
    k0_pay1 (F := Ideal) v4 v10 v16 v22 (ix2 p q)
      = ((((Ideal.ofBits .f32 0x00000000#32 + ∑ k : Fin 32, v4 (ix3 p k q)) + ∑ k : Fin 32, v10 (ix3 p k q))
            + ∑ k : Fin 32, v16 (ix3 p k q)) + ∑ k : Fin 32, v22 (ix3 p k q))
          * Ideal.ofBits .f32 0x3C000000#32 := by
  unfold k0_pay1
  exact congrArg₂ (· * ·)
    (congrArg₂ (· + ·) (congrArg₂ (· + ·) (congrArg₂ (· + ·) (congrArg (Ideal.ofBits .f32 0x00000000#32 + ·)
      (laneSum v4 _ _ _ p q)) (laneSum v10 _ _ _ p q)) (laneSum v16 _ _ _ p q)) (laneSum v22 _ _ _ p q)) rfl

/-- ENTRY (p, q) OF WHAT THE BODY STORES, for an input block `x` of extended reals: the sum of `x (p, ·, q)` over all 128
    middle positions, from the zero the body starts at, divided by 128. -/
theorem out_apply (c : Dev nD) (i : grid0.Coords) (a1 : Memref sig .tc .vmem S64x128x512 .f32) (h1 : a1.IsWhole)
    (a2 : Memref sig .tc .vmem S64x512 .f32) (h2 : a2.IsWhole) (x : Vec Ideal S64x128x512 .f32) (p : Fin 64) (q : Fin 512) :
    out0_A_1 (F := Ideal) c i a1 h1 a2 h2 x (ix2 p q)
      = Ideal.div (Ideal.ofBits .f32 0x00000000#32 + ∑ k : Fin 128, x (ix3 p k q)) (Ideal.ofBits .f32 0x43000000#32) := by
  have h4 := sum_four_runs fun k : Fin 128 => x (ix3 p k q)
  rw [out_A, pay_apply, mul_inv128, h4]
  simp only [ofBits_zero, zero_add]
  exact congrArg (Ideal.div · _) (congrArg₂ (· + ·) (congrArg₂ (· + ·) (congrArg₂ (· + ·)
    (Finset.sum_congr rfl fun k _ => ld_run x 0 p k q) (Finset.sum_congr rfl fun k _ => ld_run x 1 p k q))
    (Finset.sum_congr rfl fun k _ => ld_run x 2 p k q)) (Finset.sum_congr rfl fun k _ => ld_run x 3 p k q))

end Cert.KernelIdeal.MeanValue

end
-- ==== Proof.KernelArray.lean ====
/-
  From blocks to the array, for the idealized kernel. Grid point `t` (of 64) stages rows `64 t … 64 t + 63` of the
  [4096, 128, 512] argument (block index `(t, 0, 0)`) and writes back rows `64 t … 64 t + 63` of the [4096, 512] result
  (block index `(t, 0)`). What it writes back is the body's block, whose entry (p, q) is the mean over the middle axis of
  the staged block at (p, ·, q); the staged block's entry (p, k, q) is the argument's entry (64 t + p, k, q). So the block
  written back is block `t` of ONE whole-array function, `meanRows` of the argument; row `r` of the result lies in the
  block of point `r / 64`, so the 64 blocks cover the result array and it ends holding `meanRows` of the argument.
-/
import proofs.«161008_j42855183679779_2_alg».proof.Proof.Gen.KernelIdeal.Value
import proofs.«161008_j42855183679779_2_alg».proof.Proof.KernelPoint

noncomputable section

open Idealize.ShloMosaic Idealize.ShloMosaic.TcCoe Idealize.SL.Sem
open Idealize.ShloMosaic.Pipeline (Dat)

namespace Cert.KernelIdeal.MeanValue

open Cert.KernelIdeal Cert.KernelIdeal.Gen Idealize.ShloMosaic.ValueIdx Cert.MeanPool

variable (m : (ℓ : Loc nD τ sig) → Buf (Elt Ideal) ℓ) (ρ : Dev nD → PrngReg)

/-- The two index maps over the grid: at point `t` the input's block index is `(t, 0, 0)`, the output's `(t, 0)`. -/
theorem idx_facts : ∀ t : Fin cfg0.N, win0_0.index t (0 : Fin 3) = t.val ∧ win0_0.index t (1 : Fin 3) = 0
    ∧ win0_0.index t (2 : Fin 3) = 0 ∧ win0_1.index t (0 : Fin 2) = t.val ∧ win0_1.index t (1 : Fin 2) = 0 :=
  (by decide +kernel : ∀ t : Fin grid0.N, _)

/-- The result array: the mean over the middle axis of the argument as launched. -/
abbrev result (c : Dev nD) : Buf (Elt Ideal) ((c : Thread nD τ).loc main_v0) :=
  meanRows (m ((c : Thread nD τ).loc main_arg0))

/-- The body's stored block at any entry `y` (coordinates split off, then `out_apply`). -/
theorem out_entry (c : Dev nD) (i : grid0.Coords) (a1 : Memref sig .tc .vmem S64x128x512 .f32) (h1 : a1.IsWhole)
    (a2 : Memref sig .tc .vmem S64x512 .f32) (h2 : a2.IsWhole) (x : Vec Ideal S64x128x512 .f32) (y : S64x512.Idx) :
    out0_A_1 (F := Ideal) c i a1 h1 a2 h2 x y
      = Ideal.div (Ideal.ofBits .f32 0x00000000#32 + ∑ k : Fin 128, x (ix3 (y 0) k (y 1))) (Ideal.ofBits .f32 0x43000000#32) := by
  obtain ⟨p, q, rfl⟩ : ∃ (p : Fin 64) (q : Fin 512), y = ix2 p q := ⟨y 0, y 1, eq_ix2 y⟩
  exact out_apply c i a1 h1 a2 h2 x p q

/-- The staged input block at point `t`, entry (p, k, q), is the argument's entry (64 t + p, k, q). -/
theorem iblk_entry (c : Dev nD) (t : Fin cfg0.N) (p : Fin 64) (k : Fin 128) (q : Fin 512) (i : S4096x128x512.Idx)
    (h0 : (i 0).val = 64 * t.val + p.val) (h1 : (i 1).val = k.val) (h2 : (i 2).val = q.val) :
    (iblk m c 0 t : Vec Ideal S64x128x512 .f32) (ix3 p k q) = (m ((c : Thread nD τ).loc main_arg0) : S4096x128x512.Idx → EReal) i := by
  obtain ⟨e0, e1, e2, -, -⟩ := idx_facts t
  unfold iblk
  rw [View.read_apply]
  show V m c main_arg0 _ = m (c.tc.loc main_arg0) _
  unfold V
  congr 1
  funext a
  apply Fin.ext
  match a with
  | ⟨0, _⟩ => show win0_0.index t (0 : Fin 3) * 64 + 1 * p.val = (i 0).val; rw [e0, h0]; omega
  | ⟨1, _⟩ => show win0_0.index t (1 : Fin 3) * 128 + 1 * k.val = (i 1).val; rw [e1, h1]; omega
  | ⟨2, _⟩ => show win0_0.index t (2 : Fin 3) * 512 + 1 * q.val = (i 2).val; rw [e2, h2]; omega

/-- WHAT POINT `t` WRITES BACK is block `t` of the mean of the argument. -/
theorem flushed_eq (c : Dev nD) (t : Fin cfg0.N) :
    (dats m 0 c).flushed 1 t = ((cfg0.win 1).blk t).view.read (Elt Ideal) (result m c) := by
  obtain ⟨-, -, -, e3, e4⟩ := idx_facts t
  rw [Cert.KernelIdeal.Value.flushed1_A]
  funext j
  rw [View.read_apply]
  refine (out_entry c (grid0.coords t) (ms0_0 t) (hs0_0 t) (ms0_1 t) (hs0_1 t) (iblk m c 0 t)
    ((cfg0.win 1).xinj (grid0.coords t) j)).trans ?_
  show _ = Ideal.div (_ + ∑ k : Fin 128, _) _
  refine congrArg (Ideal.div · _) (congrArg (_ + ·) (Finset.sum_congr rfl fun k _ => ?_))
  refine iblk_entry m c t _ k _ _ ?_ rfl ?_
  · show win0_1.index t (0 : Fin 2) * 64 + 1 * (j 0).val = 64 * t.val + (j 0).val; rw [e3]; omega
  · show win0_1.index t (1 : Fin 2) * 512 + 1 * (j 1).val = (j 1).val; rw [e4]; omega

/-- An index of the result array is in point `t`'s block iff each coordinate is in the block's range on its axis. -/
theorem mem_blk (t : Fin cfg0.N) (i : S4096x512.Idx) :
    i ∈ ((cfg0.win 1).blk t).view.set ↔ ∀ a : Fin 2, win0_1.index t a * S64x512.size a ≤ (i a).val ∧ (i a).val < win0_1.index t a * S64x512.size a + S64x512.size a := by
  show i ∈ ((View.whole main_v0).slice (win0_1.rect t)).set ↔ _
  rw [View.set_slice_whole, Rect.mem_set_unit]
  exact Iff.rfl

/-- Every index of the result array lies in the block of the point its row belongs to. -/
theorem cover (i : S4096x512.Idx) : ∃ t : Fin cfg0.N, (cfg0.win 1).flush t = true ∧ i ∈ ((cfg0.win 1).blk t).view.set := by
  have hN : grid0.N = 64 := N_0
  have hi0 : (i 0).val < 4096 := (i 0).isLt
  have hi1 : (i 1).val < 512 := (i 1).isLt
  have ht : (i 0).val / 64 < cfg0.N := by show (i 0).val / 64 < grid0.N; omega
  refine ⟨⟨(i 0).val / 64, ht⟩, flush0_1 _, ?_⟩
  obtain ⟨-, -, -, e3, e4⟩ := idx_facts ⟨(i 0).val / 64, ht⟩
  rw [mem_blk]
  intro a
  match a with
  | ⟨0, _⟩ =>
    show win0_1.index ⟨(i 0).val / 64, ht⟩ (0 : Fin 2) * 64 ≤ (i 0).val ∧ (i 0).val < win0_1.index ⟨(i 0).val / 64, ht⟩ (0 : Fin 2) * 64 + 64
    rw [e3]; show (i 0).val / 64 * 64 ≤ (i 0).val ∧ (i 0).val < (i 0).val / 64 * 64 + 64; omega
  | ⟨1, _⟩ =>
    show win0_1.index ⟨(i 0).val / 64, ht⟩ (1 : Fin 2) * 512 ≤ (i 1).val ∧ (i 1).val < win0_1.index ⟨(i 0).val / 64, ht⟩ (1 : Fin 2) * 512 + 512
    rw [e4]; omega

/-- THE ARRAY after the run: the mean over the middle axis of the argument. -/
theorem final (c : Dev nD) : (dats m 0 c).arrAt 1 cfg0.N = result m c :=
  (dats m 0 c).arrAt_eq_of_cover 1 (result m c) (fun t _ => flushed_eq m c t) cover

/-- The run, read: the result array at the mean of the argument, the argument unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0) :=
  (θ_run defs _ _).mono (fun _ h c => ⟨(h c).1.trans (final m c), (h c).2⟩)
    (Cert.KernelIdeal.Value.run_blocks m ρ)

end Cert.KernelIdeal.MeanValue

end
-- ==== Proof.RefValue.lean ====
/-
  The reference, entry by entry. Its five host operations are: a zero scalar; the sum of the argument over the middle axis
  started from that zero; the scalar 128; its spread over the [4096, 512] result shape; the quotient. At an entry (b, d)
  that is (0 + Σ_{k<128} x(b, k, d)) / 128 — the specification `meanRows`, with nothing to rearrange.
-/
import proofs.«161008_j42855183679779_2_alg».proof.Proof.Gen.ReferenceIdeal.Read
import proofs.«161008_j42855183679779_2_alg».proof.Proof.MeanLaw

noncomputable section

open Idealize.ShloMosaic Idealize.ShloMosaic.TcCoe Idealize.SL.Sem

namespace Cert.ReferenceIdeal.MeanValue

open Cert.ReferenceIdeal Cert.ReferenceIdeal.Gen Cert.ReferenceIdeal.Read Idealize.ShloMosaic.ValueIdx Cert.MeanPool

/-- The reference's last stage, as a function of the argument, is the mean over the middle axis. -/
theorem ref_eq (x : (⟨S4096x128x512, .f32⟩ : BufTy).Contents (Elt Ideal)) :
    val_main_v2 (F := Ideal) x = meanRows x := by
  funext i
  rw [val_main_v2_apply, val_main_v0_apply, val_main_v1_apply, val_main_cst_apply, val_main_cst_0_apply]
  simp only [Ideal.hostDivf_def, Ideal.ofBits_def]
  unfold meanRows
  refine congrArg (Ideal.div · _) (congrArg (_ + ·) (Finset.sum_congr rfl fun k _ => congrArg x ?_))
  funext a
  match a with
  | ⟨0, _⟩ => rfl
  | ⟨1, _⟩ => rfl
  | ⟨2, _⟩ => rfl

end Cert.ReferenceIdeal.MeanValue

end
-- ==== Proof.lean ====
/- The proof of `Cert.Claim` (proofs.«161008_j42855183679779_2_alg».proof.Defs): mean pooling over the middle axis of a
   [4096, 128, 512] array.
   The kernel, on a grid of 64 points, stages 64 rows of the argument per point, sums each row's 128 middle positions as four
   runs of 32 added left to right from zero, scales by the f32 constant 2⁻⁷ and writes the [64, 512] block back; the reference
   sums the 128 positions in one host reduction from zero and divides by 128.
   On the extended reals the two are ONE function, entry by entry, with no hypothesis on the entries: regrouping the sum uses
   only that + is commutative and associative (true with the infinities), and 2⁻⁷ denotes exactly 1/128, so the product is the
   quotient at every extended real. The precondition is therefore never opened.
   Proof/MeanLaw.lean states the specification `meanRows` and those two facts; Proof/KernelPoint.lean reads one grid
   point's stored block entry by entry; Proof/KernelArray.lean goes from the blocks to the result array and restates the
   kernel's run; Proof/RefValue.lean reads the reference's stages entry by entry. The three frames are the generated runs
   (the reference's with its result dropped); the idealization rewrote nothing, so `preserves` is `True`. -/
import proofs.«161008_j42855183679779_2_alg».proof.Defs
import proofs.«161008_j42855183679779_2_alg».proof.Proof.Gen.Kernel
import proofs.«161008_j42855183679779_2_alg».proof.Proof.Gen.Kernel.Skeleton
import proofs.«161008_j42855183679779_2_alg».proof.Proof.Gen.Kernel.Launch
import proofs.«161008_j42855183679779_2_alg».proof.Proof.Gen.Kernel.Points
import proofs.«161008_j42855183679779_2_alg».proof.Proof.Gen.Kernel.Frame
import proofs.«161008_j42855183679779_2_alg».proof.Proof.Gen.KernelIdeal
import proofs.«161008_j42855183679779_2_alg».proof.Proof.Gen.KernelIdeal.Skeleton
import proofs.«161008_j42855183679779_2_alg».proof.Proof.Gen.KernelIdeal.Launch
import proofs.«161008_j42855183679779_2_alg».proof.Proof.Gen.KernelIdeal.Points
import proofs.«161008_j42855183679779_2_alg».proof.Proof.Gen.KernelIdeal.Frame
import proofs.«161008_j42855183679779_2_alg».proof.Proof.Gen.KernelIdeal.Value
import proofs.«161008_j42855183679779_2_alg».proof.Proof.Gen.ReferenceIdeal
import proofs.«161008_j42855183679779_2_alg».proof.Proof.Gen.ReferenceIdeal.Run
import proofs.«161008_j42855183679779_2_alg».proof.Proof.Gen.ReferenceIdeal.Read
import proofs.«161008_j42855183679779_2_alg».proof.Proof.Gen.Pre_finite_inputs
import proofs.«161008_j42855183679779_2_alg».proof.Proof.KernelArray
import proofs.«161008_j42855183679779_2_alg».proof.Proof.RefValue
import Idealize.ShloMosaic.Adequacy
import Idealize.ShloMosaic.Init

noncomputable section

namespace Cert.Proof

open Idealize.ShloMosaic Idealize.SL.Sem

/-- The word-level kernel runs and leaves its argument as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the reference: its run, with what it says of the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- From memories agreeing on the argument, both programs end with the result array at the mean over the middle axis of
    the argument: the kernel block by block (Proof/KernelArray.lean), the reference stage by stage (Proof/RefValue.lean). -/
theorem algebraic : Cert.algebraic_KernelIdeal_ReferenceIdeal := by
  intro m ρ m' ρ' _ hagree
  refine ⟨fun c => Cert.KernelIdeal.MeanValue.result m c, Cert.KernelIdeal.MeanValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.MeanValue.ref_eq, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
